-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x64x128 .f32 .bf16
  ∧ IdealRules.truncf_extf.Statement Cert.KernelIdeal.S64x128 .f32 .bf16
  ∧ IdealRules.truncf_extf.Statement Cert.KernelIdeal.S128x64x128 .f32 .bf16
  ∧ IdealRules.truncf_extf.Statement Cert.KernelIdeal.S64x128 .f32 .bf16
  ∧ IdealRules.truncf_extf.Statement Cert.KernelIdeal.S128x64x128 .f32 .bf16
  ∧ IdealRules.truncf_extf.Statement Cert.KernelIdeal.S64x128 .f32 .bf16
  ∧ IdealRules.truncf_extf.Statement Cert.KernelIdeal.S128x64x128 .f32 .bf16
  ∧ IdealRules.truncf_extf.Statement Cert.KernelIdeal.S64x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x64 : Shape := ⟨3, ![32, 16384, 64]⟩
abbrev S128x64 : Shape := ⟨2, ![128, 64]⟩
abbrev S_ : Shape := ⟨0, ![]⟩

class Facts : Prop where
  bcast_S_S32x16384x64 : S_.BroadcastsInDim S32x16384x64 (![] : Fin 0 → Fin S32x16384x64.rank)
  reducesTo_S32x16384x64_S_d0_1_2 : S32x16384x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S32x16384x64 .f32) (main_arg1 : FVec F S128x64 .f32) : IVec S_ 1 :=
  let main_v0 : FVec F S32x16384x64 .f32 := Host.absf main_arg0
  let main_cst : FVec F S_ .f32 := constant S_ .f32 0x7F800000#32
  let main_v1 : FVec F S32x16384x64 .f32 := broadcastInDim S32x16384x64 ![] bcast_S_S32x16384x64 main_cst
  let main_v2 : IVec S32x16384x64 1 := cmpf .olt main_v0 main_v1
  let main_c : IVec S_ 1 := constantI S_ 1 1#1
  let main_v3 : IVec S_ 1 := (fun x v => Host.reduce IntOp.andi x v reducesTo_S32x16384x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S32x16384x64 : Shape := ⟨3, ![32, 16384, 64]⟩
abbrev S128x64 : Shape := ⟨2, ![128, 64]⟩
abbrev S64x128 : Shape := ⟨2, ![64, 128]⟩
abbrev S32x64x128 : Shape := ⟨3, ![32, 64, 128]⟩
abbrev S1x512x64 : Shape := ⟨3, ![1, 512, 64]⟩
abbrev S1x64x128 : Shape := ⟨3, ![1, 64, 128]⟩
abbrev S128x64x128 : Shape := ⟨3, ![128, 64, 128]⟩
abbrev S1x128x64 : Shape := ⟨3, ![1, 128, 64]⟩
abbrev S128x64x1 : Shape := ⟨3, ![128, 64, 1]⟩
abbrev S32x128x64 : Shape := ⟨3, ![32, 128, 64]⟩

abbrev nBuf : Space → Nat
  | .hbm => 5
  | .vmem => 6
  | .smem => 0
  | _ => 0

abbrev bufTy : (tb : Table) → Fin (tcTables nBuf tb) → BufTy
  | .hbm, ⟨0, _⟩ => ⟨S32x16384x64, .f32⟩
  | .hbm, ⟨1, _⟩ => ⟨S128x64, .f32⟩
  | .hbm, ⟨2, _⟩ => ⟨S64x128, .f32⟩
  | .hbm, ⟨3, _⟩ => ⟨S32x64x128, .f32⟩
  | .hbm, ⟨4, _⟩ => ⟨S32x128x64, .f32⟩
  | .local _ .vmem, ⟨0, _⟩ => ⟨S1x512x64, .f32⟩
  | .local _ .vmem, ⟨1, _⟩ => ⟨S1x512x64, .f32⟩
  | .local _ .vmem, ⟨2, _⟩ => ⟨S64x128, .f32⟩
  | .local _ .vmem, ⟨3, _⟩ => ⟨S1x64x128, .f32⟩
  | .local _ .vmem, ⟨4, _⟩ => ⟨S1x64x128, .f32⟩
  | .local _ .vmem, ⟨5, _⟩ => ⟨S64x128, .f32⟩
  | _, _ => ⟨S32x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 32], ![false, false]⟩

def k0_mult1 : BitVec 32 :=
  let c0_i32_1 : BitVec 32 := 0#32
  let c128_i32 : BitVec 32 := 128#32
  let v5 : BitVec 32 := Scalar.muli c0_i32_1 c128_i32
  v5
def k0_off1 (c0_i32_1 : BitVec 32) : Fin 3 → Nat :=
  let c0 : Index := 0#32
  let c128_i32 : BitVec 32 := 128#32
  let v5 : BitVec 32 := Scalar.muli c0_i32_1 c128_i32
  let v6 : BitVec 32 := v5
  let v7 : Index := Scalar.indexCast v6
  let c0_2 : Index := 0#32
  ![0, v7.toNat, 0]
def k0_mult2 : BitVec 32 :=
  let c1_i32 : BitVec 32 := 1#32
  let c128_i32_6 : BitVec 32 := 128#32
  let v28 : BitVec 32 := Scalar.muli c1_i32 c128_i32_6
  v28
def k0_mult3 : BitVec 32 :=
  let c2_i32 : BitVec 32 := 2#32
  let c128_i32_13 : BitVec 32 := 128#32
  let v51 : BitVec 32 := Scalar.muli c2_i32 c128_i32_13
  v51
def k0_mult4 : BitVec 32 :=
  let c3_i32 : BitVec 32 := 3#32
  let c128_i32_20 : BitVec 32 := 128#32
  let v74 : BitVec 32 := Scalar.muli c3_i32 c128_i32_20
  v74
def k0_cond2 (i : grid0.Coords) : BitVec 1 :=
  let arg1 : BitVec 32 := BitVec.ofNat 32 (i 1).val
  let c31_i32 : BitVec 32 := 31#32
  let v102 : BitVec 1 := Scalar.cmpi .eq arg1 c31_i32
  let v103 : BitVec 32 := Scalar.extui v102
  let c0_i32_31 : BitVec 32 := 0#32
  let v104 : BitVec 1 := Scalar.cmpi .ne v103 c0_i32_31
  v104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S128x64_S64x128_1_0 : S128x64.Transposes [1, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S128x64x128_d2_w32 : S128x64x128.Iotas .tc 32 [2]
  h_S1x128x64 : 0 < S1x128x64.numel
  shapeCasts_S1x128x64_S128x64 : S1x128x64.ShapeCasts S128x64
  shapeCasts_S128x64_S128x64x1 : S128x64.ShapeCasts S128x64x1
  broadcasts_S128x64x1_S128x64x128 : S128x64x1.Broadcasts S128x64x128
  natLt_1_32 : 1 < 32
  bitsLt_bf16_f32 : FTy.bits .bf16 < FTy.bits .f32
  reduces_S128x64x128_S64x128 : S128x64x128.Reduces [0] S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  transposes_S32x64x128_S32x128x64_0_2_1 : S32x64x128.Transposes [0, 2, 1] S32x128x64
  hrank0 : 0 < grid0.rank
  k0_mult1_dvd : 128 ∣ k0_mult1.toNat
  k0_off1_inb : ∀ (r : Fin 4), ∀ a, (k0_off1 (BitVec.ofNat 32 r.val)) a + S1x128x64.size a ≤ S1x512x64.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x16384x64.size a
  hwx0_0 : ∀ i : grid0.Coords, EltTy.bits .f32 = 32 ∨ (Rect.block (s := S32x16384x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S32x64x128.size a
  hwx0_2 : ∀ i : grid0.Coords, EltTy.bits .f32 = 32 ∨ (Rect.block (s := S32x64x128) S1x64x128.size (cc0_transform_2 i) (hinb0_2 i)).WholeWords (EltTy.packing .f32)

variable [Facts₀]

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x16384x64 : Shape := ⟨3, ![32, 16384, 64]⟩
abbrev S128x64 : Shape := ⟨2, ![128, 64]⟩
abbrev S_ : Shape := ⟨0, ![]⟩
abbrev S32 : Shape := ⟨1, ![32]⟩
abbrev S32x1x1 : Shape := ⟨3, ![32, 1, 1]⟩
abbrev S64 : Shape := ⟨1, ![64]⟩
abbrev S1x1x64 : Shape := ⟨3, ![1, 1, 64]⟩
abbrev S32x1x64 : Shape := ⟨3, ![32, 1, 64]⟩
abbrev S33554432 : Shape := ⟨1, ![33554432]⟩
abbrev S262144 : Shape := ⟨1, ![262144]⟩
abbrev S33554432x1 : Shape := ⟨2, ![33554432, 1]⟩
abbrev S32x64x128 : Shape := ⟨3, ![32, 64, 128]⟩
abbrev S32x128x64 : Shape := ⟨3, ![32, 128, 64]⟩
abbrev S1x128x64 : Shape := ⟨3, ![1, 128, 64]⟩

abbrev nBuf : Space → Nat
  | .hbm => 41
  | .vmem => 0
  | .smem => 0
  | _ => 0

abbrev bufTy : (tb : Table) → Fin (tcTables nBuf tb) → BufTy
  | .hbm, ⟨0, _⟩ => ⟨S32x16384x64, .f32⟩
  | .hbm, ⟨1, _⟩ => ⟨S128x64, .f32⟩
  | .hbm, ⟨2, _⟩ => ⟨S_, .f32⟩
  | .hbm, ⟨3, _⟩ => ⟨S32x16384x64, .f32⟩
  | .hbm, ⟨4, _⟩ => ⟨S32x16384x64, .f32⟩
  | .hbm, ⟨5, _⟩ => ⟨S32x16384x64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x16384x64, .i32⟩
  | .hbm, ⟨10, _⟩ => ⟨S32x16384x64, .i32⟩
  | .hbm, ⟨11, _⟩ => ⟨S_, .i32⟩
  | .hbm, ⟨12, _⟩ => ⟨S32x16384x64, .i32⟩
  | .hbm, ⟨13, _⟩ => ⟨S32x16384x64, .i32⟩
  | .hbm, ⟨14, _⟩ => ⟨S32, .i32⟩
  | .hbm, ⟨15, _⟩ => ⟨S32x1x1, .i32⟩
  | .hbm, ⟨16, _⟩ => ⟨S64, .i32⟩
  | .hbm, ⟨17, _⟩ => ⟨S1x1x64, .i32⟩
  | .hbm, ⟨18, _⟩ => ⟨S_, .i32⟩
  | .hbm, ⟨19, _⟩ => ⟨S32x1x1, .i32⟩
  | .hbm, ⟨20, _⟩ => ⟨S32x1x1, .i32⟩
  | .hbm, ⟨21, _⟩ => ⟨S32x1x64, .i32⟩
  | .hbm, ⟨22, _⟩ => ⟨S32x1x64, .i32⟩
  | .hbm, ⟨23, _⟩ => ⟨S32x1x64, .i32⟩
  | .hbm, ⟨24, _⟩ => ⟨S_, .i32⟩
  | .hbm, ⟨25, _⟩ => ⟨S32x1x64, .i32⟩
  | .hbm, ⟨26, _⟩ => ⟨S32x1x64, .i32⟩
  | .hbm, ⟨27, _⟩ => ⟨S32x16384x64, .i32⟩
  | .hbm, ⟨28, _⟩ => ⟨S32x16384x64, .i32⟩
  | .hbm, ⟨29, _⟩ => ⟨S_, .f32⟩
  | .hbm, ⟨30, _⟩ => ⟨S33554432, .f32⟩
  | .hbm, ⟨31, _⟩ => ⟨S33554432, .i32⟩
  | .hbm, ⟨32, _⟩ => ⟨S_, .f32⟩
  | .hbm, ⟨33, _⟩ => ⟨S262144, .f32⟩
  | .hbm, ⟨34, _⟩ => ⟨S33554432x1, .i32⟩
  | .hbm, ⟨35, _⟩ => ⟨S262144, .f32⟩
  | .hbm, ⟨36, _⟩ => ⟨S32x64x128, .f32⟩
  | .hbm, ⟨37, _⟩ => ⟨S32x128x64, .f32⟩
  | .hbm, ⟨38, _⟩ => ⟨S1x128x64, .f32⟩
  | .hbm, ⟨39, _⟩ => ⟨S32x128x64, .f32⟩
  | .hbm, ⟨40, _⟩ => ⟨S32x128x64, .f32⟩
  | _, _ => ⟨S32x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S32x16384x64 : S_.BroadcastsInDim S32x16384x64 (![] : Fin 0 → Fin S32x16384x64.rank)
  bcast_S32_S32x1x1_0 : S32.BroadcastsInDim S32x1x1 (![0] : Fin 1 → Fin S32x1x1.rank)
  bcast_S64_S1x1x64_2 : S64.BroadcastsInDim S1x1x64 (![2] : Fin 1 → Fin S1x1x64.rank)
  bcast_S_S32x1x1 : S_.BroadcastsInDim S32x1x1 (![] : Fin 0 → Fin S32x1x1.rank)
  bcast_S32x1x1_S32x1x64_0_1_2 : S32x1x1.BroadcastsInDim S32x1x64 (![0, 1, 2] : Fin 3 → Fin S32x1x64.rank)
  bcast_S1x1x64_S32x1x64_0_1_2 : S1x1x64.BroadcastsInDim S32x1x64 (![0, 1, 2] : Fin 3 → Fin S32x1x64.rank)
  bcast_S_S32x1x64 : S_.BroadcastsInDim S32x1x64 (![] : Fin 0 → Fin S32x1x64.rank)
  bcast_S32x1x64_S32x16384x64_0_1_2 : S32x1x64.BroadcastsInDim S32x16384x64 (![0, 1, 2] : Fin 3 → Fin S32x16384x64.rank)
  bcast_S_S33554432 : S_.BroadcastsInDim S33554432 (![] : Fin 0 → Fin S33554432.rank)
  shapeCasts_S32x16384x64_S33554432 : S32x16384x64.ShapeCasts S33554432
  bcast_S_S262144 : S_.BroadcastsInDim S262144 (![] : Fin 0 → Fin S262144.rank)
  bcast_S33554432_S33554432x1_0 : S33554432.BroadcastsInDim S33554432x1 (![0] : Fin 1 → Fin S33554432x1.rank)
  shapeCasts_S262144_S32x64x128 : S262144.ShapeCasts S32x64x128
  transposes_S32x64x128_S32x128x64_0_2_1 : S32x64x128.Transposes [0, 2, 1] S32x128x64
  bcast_S128x64_S1x128x64_1_2 : S128x64.BroadcastsInDim S1x128x64 (![1, 2] : Fin 2 → Fin S1x128x64.rank)
  bcast_S1x128x64_S32x128x64_0_1_2 : S1x128x64.BroadcastsInDim S32x128x64 (![0, 1, 2] : Fin 3 → Fin S32x128x64.rank)
  scatter_S262144_S33554432x1_S33554432_n_0_0_1_wf : ScatterDims.WF S262144 S33554432x1 S33554432 [] [0] [0] 1

variable [Facts₀]

def scatter_S262144_S33554432x1_S33554432_n_0_0_1 : ScatterDims S262144 S33554432x1 S33554432 where
  updateWindowDims := []
  insertedWindowDims := [0]
  scatterDimsToOperandDims := [0]
  indexVectorDim := 1
  wf := scatter_S262144_S33554432x1_S33554432_n_0_0_1_wf

class Facts : Prop extends Facts₀ where

variable [Facts]
-- ==== Proof.Bins.lean ====
/-
  A weighted histogram over the extended reals, as one function of the argument arrays.

  A value v falls in the bin whose number is v·128 rounded toward zero and clamped to [0, 127].
  For a batch b, a feature f and a bin q, `count x b f q` is the number of positions s along the
  long axis whose value x(b, s, f) falls in bin q — a finite sum of zeros and ones — and the
  result array holds at (b, q, f) that count times the weight w(q, f).
-/
import Idealize.ShloMosaic.PureOps.Ideal
import Idealize.ShloMosaic.PureOps.Ideal.Laws
import Idealize.ShloMosaic.Lib.ValueIdx
import Idealize.ShloMosaic.Lib.IdealHost

noncomputable section

namespace Cert.Hist

open Idealize.ShloMosaic Idealize.ShloMosaic.ValueIdx

/-- The bin of a value, as a 32-bit word: v·128 truncated to an integer, then clamped to [0, 127]. -/
def binWord (v : EReal) : BitVec 32 :=
  IntOp.minsi 127#32 (IntOp.maxsi 0#32 (Ideal.fptosi 32 (v * Ideal.ofBits .f32 0x43000000#32)))

/-- A word clamped below at 0 and above at 127 (signed) is a natural number below 128. -/
theorem clamp_lt (w : BitVec 32) : (IntOp.minsi 127#32 (IntOp.maxsi 0#32 w)).toNat < 128 := by
  unfold IntOp.minsi IntOp.maxsi
  by_cases h0 : w.slt 0#32 = true
  · rw [if_pos h0]
    have : (127#32 : BitVec 32).slt 0#32 = false := by decide
    rw [this]; decide
  · rw [if_neg h0]
    by_cases h1 : (127#32 : BitVec 32).slt w = true
    · rw [if_pos h1]; decide
    · rw [if_neg h1]
      rw [BitVec.slt_eq_decide, decide_eq_true_eq] at h0 h1
      have e0 : (0#32 : BitVec 32).toInt = 0 := by decide
      have e1 : (127#32 : BitVec 32).toInt = 127 := by decide
      rw [e0] at h0; rw [e1] at h1
      have hw := BitVec.toInt_eq_toNat_cond w
      have hlt := w.isLt
      split_ifs at hw <;> omega

theorem binWord_lt (v : EReal) : (binWord v).toNat < 128 := clamp_lt _

/-- One when v falls in bin q, zero otherwise. -/
def hit (v : EReal) (q : Fin 128) : EReal := if binWord v = BitVec.ofNat 32 q.val then 1 else 0

/-- The comparison of the bin word with q, widened to 32 bits and read as a signed integer, is that indicator. -/
theorem hit_eq_word (v : EReal) (q : Fin 128) :
    ((((IntOp.cmpi .eq (binWord v) (BitVec.ofNat 32 q.val)).setWidth 32).toInt : ℝ) : EReal) = hit v q := by
  unfold hit IntOp.cmpi
  by_cases h : binWord v = BitVec.ofNat 32 q.val
  · rw [if_pos h, h]
    simp
  · rw [if_neg h]
    have : (binWord v == BitVec.ofNat 32 q.val) = false := by simpa using h
    rw [this]
    simp

/-- How many positions along the long axis of x fall, for batch b and feature f, in bin q. -/
def count (x : (⟨3, ![32, 16384, 64]⟩ : Shape).Idx → EReal) (b : Fin 32) (f : Fin 64) (q : Fin 128) : EReal :=
  ∑ s : Fin 16384, hit (x (ix3 b s f)) q

/-- The weighted histogram: at (b, q, f) the count for (b, f, q) times the weight w(q, f). -/
def weighted (x : (⟨3, ![32, 16384, 64]⟩ : Shape).Idx → EReal) (w : (⟨2, ![128, 64]⟩ : Shape).Idx → EReal) :
    (⟨3, ![32, 128, 64]⟩ : Shape).Idx → EReal :=
  fun i => count x (i 0) (i 2) (i 1) * w (ix2 (i 1) (i 2))

end Cert.Hist

end
-- ==== Proof.LibScatterCount.lean ====
/-
  A host scatter with an add body whose every update is one element, addressed by a one-component
  index: the operand has N elements, there are M updates, update j lands on the element whose number
  is the signed reading of index word j (and is dropped when that number is outside 0 … N − 1).
  On the extended reals the result at element i is the operand's element plus the sum of the updates
  whose index word reads i.
-/
import Idealize.ShloMosaic.PureOps.Ideal
import Idealize.ShloMosaic.PureOps.Ideal.Laws
import Idealize.ShloMosaic.Lib.ValueIdx

noncomputable section

namespace Cert.Lib.ScatterCount

open Idealize.ShloMosaic Idealize.ShloMosaic.ValueIdx

variable {N M w : Nat}

/-- The dimension numbers of such a scatter: no window axes in the updates, the operand's one axis
    inserted and addressed by component 0 of the index vector, the index vector along axis 1. -/
abbrev dims (wf : ScatterDims.WF ⟨1, ![N]⟩ ⟨2, ![M, 1]⟩ ⟨1, ![M]⟩ [] [0] [0] 1) :
    ScatterDims ⟨1, ![N]⟩ ⟨2, ![M, 1]⟩ ⟨1, ![M]⟩ :=
  ScatterDims.mk [] [0] [0] 1 wf

/-- Update j reads its index at row j of the M×1 index array. -/
theorem siIdx_eq (wf : ScatterDims.WF ⟨1, ![N]⟩ ⟨2, ![M, 1]⟩ ⟨1, ![M]⟩ [] [0] [0] 1)
    (j : (⟨1, ![M]⟩ : Shape).Idx) (c : Fin (dims wf).scatterDimsToOperandDims.length) :
    (dims wf).siIdx j c = ix2 (j 0) 0 := by
  funext b
  apply Fin.ext
  match b with
  | ⟨0, _⟩ => rfl
  | ⟨1, _⟩ =>
    have : c.val < 1 := c.isLt
    have : c.val = 0 := by omega
    show c.val = 0
    exact this

/-- The start of update j on the operand's axis is the signed reading of its index word. -/
theorem start_eq (wf : ScatterDims.WF ⟨1, ![N]⟩ ⟨2, ![M, 1]⟩ ⟨1, ![M]⟩ [] [0] [0] 1)
    (j : (⟨1, ![M]⟩ : Shape).Idx) (idx : IVec ⟨2, ![M, 1]⟩ w) (a : Fin 1) :
    (dims wf).start j idx a = (idx (ix2 (j 0) 0)).toInt := by
  unfold ScatterDims.start
  have ha : a ∈ ([0] : List (Fin 1)) := by rw [Fin.fin_one_eq_zero a]; exact List.mem_singleton_self _
  rw [dif_pos ha]
  exact congrArg (fun k => (idx k).toInt) (siIdx_eq wf j _)

/-- An update has no extent along the operand's axis. -/
theorem window_eq (wf : ScatterDims.WF ⟨1, ![N]⟩ ⟨2, ![M, 1]⟩ ⟨1, ![M]⟩ [] [0] [0] 1)
    (j : (⟨1, ![M]⟩ : Shape).Idx) (a : Fin 1) : (dims wf).window j a = 0 := by
  unfold ScatterDims.window
  rw [dif_neg]
  show a ∉ (List.finRange 1).filter (· ∉ ([0] : List (Fin 1)))
  rw [Fin.fin_one_eq_zero a]
  decide

/-- Update j lands on element i exactly when its index word, read signed, is i. -/
theorem resultIdx_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (dims wf).resultIdx? j idx = some i ↔ (idx (ix2 (j 0) 0)).toInt = ((i 0).val : Int) := by
  unfold ScatterDims.resultIdx?
  have hlt : (i 0).val < N := (i 0).isLt
  constructor
  · intro h
    split_ifs at h with hc
    have h0 : ((dims wf).start j idx 0 + ((dims wf).window j 0 : Nat)).toNat = (i 0).val :=
      congrArg (fun k => (k 0).val) (Option.some.inj h)
    have hc0 := hc 0
    rw [start_eq, window_eq] at hc0 h0
    omega
  · intro h
    have hc : ∀ a : Fin 1, 0 ≤ (dims wf).start j idx a + ((dims wf).window j a : Nat)
        ∧ (dims wf).start j idx a + ((dims wf).window j a : Nat) < ((⟨1, ![N]⟩ : Shape).size a : Nat) := fun a => by
      have := Fin.fin_one_eq_zero a; subst this
      rw [start_eq, window_eq, h]
      show (0 : Int) ≤ ((i 0).val : Int) + ((0 : Nat) : Int) ∧ ((i 0).val : Int) + ((0 : Nat) : Int) < (N : Int)
      omega
    rw [dif_pos hc]
    congr 1
    funext a
    apply Fin.ext
    have := Fin.fin_one_eq_zero a; subst this
    show ((dims wf).start j idx 0 + ((dims wf).window j 0 : Nat)).toNat = (i 0).val
    rw [start_eq, window_eq, h]
    omega

/-- The accumulating scatter at element i: the operand's element plus the updates whose index word reads i. -/
theorem scatterAdd_apply (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (dims wf) x idx upd i
      = x i + ∑ j : (⟨1, ![M]⟩ : Shape).Idx, if (idx (ix2 (j 0) 0)).toInt = ((i 0).val : Int) then upd j else 0 := by
  unfold Ideal.hostScatterAdd
  rw [Finset.sum_filter]
  congr 1
  refine Finset.sum_congr rfl fun j _ => ?_
  simp only [resultIdx_iff]

end Cert.Lib.ScatterCount

end
-- ==== Proof.LibIdxSums.lean ====
/-
  Sums over the index sets of rank one and rank three, by coordinates.

  An index of a shape of rank k is the tuple of its k coordinates, so a sum over all indices is the iterated sum over
  the coordinates.  (The library's Lib/ValueIdx.lean has the rank-two case, `sum_idx2`; these are its neighbours, over
  any commutative additive monoid — the extended reals in particular, where no finiteness is needed.)
-/
import Idealize.ShloMosaic.Lib.ValueIdx

noncomputable section

open scoped BigOperators

namespace Idealize.ShloMosaic.IdxSums

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.IdxSums

end
-- ==== Proof.RefCount.lean ====
/-
  The reference's histogram, read at an index.

  The reference numbers every (batch, position, feature) triple with the segment
  (b·64 + f)·128 + bin(x(b, s, f)), flattens the triples row-major, and scatter-adds a one per triple
  into a zero array of 32·64·128 cells. A bin is below 128 and a feature below 64, so a segment
  determines b, f and the bin: the cell for (b, f, q) receives exactly one 1 for every position s
  whose value falls in bin q. Re-shaped, transposed and multiplied by the weights this is the
  weighted histogram.
-/
import proofs.«122339_j63668595196222_2_alg».proof.Proof.Gen.ReferenceIdeal.Read
import proofs.«122339_j63668595196222_2_alg».proof.Proof.Bins
import proofs.«122339_j63668595196222_2_alg».proof.Proof.LibScatterCount
import proofs.«122339_j63668595196222_2_alg».proof.Proof.LibIdxSums

noncomputable section

namespace Cert.Hist.Ref

open Idealize.ShloMosaic Idealize.ShloMosaic.ValueIdx Idealize.ShloMosaic.IdxSums
open Cert.ReferenceIdeal Cert.ReferenceIdeal.Gen Cert.ReferenceIdeal.Read
open Cert.Hist

/-- The segment number as 32-bit arithmetic does not wrap: read signed it is (b·64 + f)·128 + n. -/
theorem seg_toInt (b : Fin 32) (f : Fin 64) (n : BitVec 32) (hn : n.toNat < 128) :
    (IntOp.addi (IntOp.muli (IntOp.addi (IntOp.muli (BitVec.ofNat 32 b.val) 64#32) (BitVec.ofNat 32 f.val)) 128#32) n).toInt
      = (((b.val * 64 + f.val) * 128 + n.toNat : Nat) : Int) := by
  have hb := b.isLt
  have hf := f.isLt
  have e : (IntOp.addi (IntOp.muli (IntOp.addi (IntOp.muli (BitVec.ofNat 32 b.val) 64#32) (BitVec.ofNat 32 f.val)) 128#32) n).toNat
      = (b.val * 64 + f.val) * 128 + n.toNat := by
    unfold IntOp.addi IntOp.muli
    simp only [BitVec.toNat_add, BitVec.toNat_mul, BitVec.toNat_ofNat]
    omega
  rw [BitVec.toInt_eq_toNat_cond, e]
  split_ifs <;> omega

/-- The segment of the triple (b', s, f'), as the reference computes it. -/
theorem seg_apply (x : (⟨S32x16384x64, .f32⟩ : BufTy).Contents (Elt Ideal)) (b : Fin 32) (s : Fin 16384) (f : Fin 64) :
    val_main_v16 (F := Ideal) x (ix3 b s f)
      = IntOp.addi (IntOp.muli (IntOp.addi (IntOp.muli (BitVec.ofNat 32 b.val) 64#32) (BitVec.ofNat 32 f.val)) 128#32)
          (binWord (x (ix3 b s f))) := by
  rw [val_main_v16_apply, val_main_v15_apply, val_main_v14_apply, val_main_v12_apply, val_main_v10_apply,
    val_main_v9_apply, val_main_v5_apply, val_main_v4_apply, val_main_v8_apply, val_main_c_1_apply,
    val_main_v11_apply, val_main_v7_apply, val_main_v6_apply, val_main_v13_apply, val_main_c_2_apply,
    val_main_v3_apply, val_main_call0_v4_apply, val_main_call0_v3_apply, val_main_c_0_apply,
    val_main_call0_v2_apply, val_main_call0_v1_apply, val_main_call0_v0_apply, val_main_c_apply,
    val_main_v2_apply, val_main_v1_apply, val_main_v0_apply, val_main_cst_apply]
  rfl

/-- A triple sum that is zero off one batch and one feature is the sum over the positions there. -/
theorem sum_pick (b : Fin 32) (f : Fin 64) (g : Fin 32 → Fin 16384 → Fin 64 → EReal) :
    ∑ b' : Fin 32, ∑ s : Fin 16384, ∑ f' : Fin 64, (if b' = b ∧ f' = f then g b' s f' else 0)
      = ∑ s : Fin 16384, g b s f := by
  rw [Finset.sum_eq_single b]
  · refine Finset.sum_congr rfl fun s _ => ?_
    rw [Finset.sum_eq_single f]
    · rw [if_pos ⟨rfl, rfl⟩]
    · intro f' _ hf; rw [if_neg (fun h => hf h.2)]
    · intro h; exact absurd (Finset.mem_univ f) h
  · intro b' _ hb
    refine Finset.sum_eq_zero fun s _ => Finset.sum_eq_zero fun f' _ => ?_
    rw [if_neg (fun h => hb h.1)]
  · intro h; exact absurd (Finset.mem_univ b) h

/-- A bin word is the word of q exactly when its number is q. -/
theorem word_eq_iff (n : BitVec 32) (q : Fin 128) : n.toNat = q.val ↔ n = BitVec.ofNat 32 q.val := by
  have hq := q.isLt
  constructor
  · intro h
    apply BitVec.eq_of_toNat_eq
    rw [BitVec.toNat_ofNat, h]
    omega
  · intro h
    rw [h, BitVec.toNat_ofNat]
    omega

/-- The triple (b', s, f') has the segment of (b, f, q) exactly when b' = b, f' = f and its value falls in bin q:
    a one there, a zero elsewhere. -/
theorem seg_hit (x : (⟨S32x16384x64, .f32⟩ : BufTy).Contents (Elt Ideal)) (b b' : Fin 32) (s : Fin 16384) (f f' : Fin 64)
    (q : Fin 128) :
    (if (val_main_v16 (F := Ideal) x (ix3 b' s f')).toInt = (((b.val * 64 + f.val) * 128 + q.val : Nat) : Int) then (1 : EReal) else 0)
      = if b' = b ∧ f' = f then hit (x (ix3 b' s f')) q else 0 := by
  rw [seg_apply, seg_toInt _ _ _ (binWord_lt _)]
  have hn := binWord_lt (x (ix3 b' s f'))
  have hq := q.isLt
  have hf := f.isLt
  have hf' := f'.isLt
  unfold hit
  by_cases hp : b' = b ∧ f' = f
  · obtain ⟨rfl, rfl⟩ := hp
    rw [if_pos (show b' = b' ∧ f' = f' from ⟨rfl, rfl⟩)]
    refine if_congr ?_ rfl rfl
    rw [← word_eq_iff]
    constructor <;> intro h <;> omega
  · rw [if_neg hp, if_neg]
    intro h
    apply hp
    have h1 : b'.val = b.val ∧ f'.val = f.val := by omega
    exact ⟨Fin.ext h1.1, Fin.ext h1.2⟩

/-- The scatter the reference prints is one of single-element updates addressed by a one-component index. -/
theorem scatter_eq (x : (⟨S32x16384x64, .f32⟩ : BufTy).Contents (Elt Ideal)) :
    val_main_v21 (F := Ideal) x
      = Ideal.hostScatterAdd (Cert.Lib.ScatterCount.dims scatter_S262144_S33554432x1_S33554432_n_0_0_1_wf)
          (val_main_v19 (F := Ideal)) (val_main_v20 (F := Ideal) x) (val_main_v17 (F := Ideal)) := rfl

/-- Ones scattered into zeros: cell k ends at the number of updates whose index word reads k. -/
theorem ones_into_zeros (idx : IVec S33554432x1 32) (k : S262144.Idx) :
    Ideal.hostScatterAdd (Cert.Lib.ScatterCount.dims scatter_S262144_S33554432x1_S33554432_n_0_0_1_wf)
          (val_main_v19 (F := Ideal)) idx (val_main_v17 (F := Ideal)) k
      = ∑ j : S33554432.Idx, if (idx (ix2 (j 0) 0)).toInt = ((k 0).val : Int) then (1 : EReal) else 0 := by
  rw [Cert.Lib.ScatterCount.scatterAdd_apply, val_main_v19_apply, val_main_cst_4_apply]
  rw [show FloatOps.ofBits (F := Ideal) .f32 0x00000000#32 = 0 from Ideal.ofBits_zero_f32, zero_add]
  refine Finset.sum_congr rfl fun j _ => ?_
  rw [val_main_v17_apply, val_main_cst_3_apply]
  rw [show FloatOps.ofBits (F := Ideal) .f32 0x3F800000#32 = 1 from Ideal.ofBits_one_f32]

/-- Update j carries the segment of the triple at row-major position j. -/
theorem index_word (x : (⟨S32x16384x64, .f32⟩ : BufTy).Contents (Elt Ideal)) (j : S33554432.Idx) :
    val_main_v20 (F := Ideal) x (ix2 (j 0) 0)
      = val_main_v16 (F := Ideal) x (Shape.reshapeEquiv shapeCasts_S32x16384x64_S33554432 j) := by
  rw [val_main_v20_apply]
  have : idx_main_v20 (ix2 (j 0) (0 : Fin 1)) = j := funext fun a => by
    match a with
    | ⟨0, _⟩ => rfl
  rw [this]
  rfl

/-- A sum over the flattened triples is the triple sum over batch, position and feature. -/
theorem sum_triples (g : S32x16384x64.Idx → EReal) :
    ∑ j : S33554432.Idx, g (Shape.reshapeEquiv shapeCasts_S32x16384x64_S33554432 j)
      = ∑ b : Fin 32, ∑ s : Fin 16384, ∑ f : Fin 64, g (ix3 b s f) := by
  rw [Equiv.sum_comp (Shape.reshapeEquiv shapeCasts_S32x16384x64_S33554432) g]
  exact sum_idx3 g

/-- The scatter's cell for (b, f, q) holds the count for (b, f, q). -/
theorem cell_eq_count (x : (⟨S32x16384x64, .f32⟩ : BufTy).Contents (Elt Ideal)) (b : Fin 32) (f : Fin 64) (q : Fin 128)
    (k : S262144.Idx) (hk : (k 0).val = (b.val * 64 + f.val) * 128 + q.val) :
    val_main_v21 (F := Ideal) x k = count x b f q := by
  refine (congrFun (scatter_eq x) k).trans ?_
  rw [ones_into_zeros, hk]
  have h1 : (∑ j : S33554432.Idx,
        if (val_main_v20 (F := Ideal) x (ix2 (j 0) 0)).toInt = (((b.val * 64 + f.val) * 128 + q.val : Nat) : Int) then (1 : EReal) else 0)
      = ∑ j : S33554432.Idx, (fun k' : S32x16384x64.Idx =>
          if (val_main_v16 (F := Ideal) x k').toInt = (((b.val * 64 + f.val) * 128 + q.val : Nat) : Int) then (1 : EReal) else 0)
        (Shape.reshapeEquiv shapeCasts_S32x16384x64_S33554432 j) :=
    Finset.sum_congr rfl fun j _ => by rw [index_word]
  refine h1.trans ((sum_triples (fun k' : S32x16384x64.Idx =>
      if (val_main_v16 (F := Ideal) x k').toInt = (((b.val * 64 + f.val) * 128 + q.val : Nat) : Int) then (1 : EReal) else 0)).trans ?_)
  refine (Finset.sum_congr rfl fun b' _ => Finset.sum_congr rfl fun s _ => Finset.sum_congr rfl fun f' _ => seg_hit x b b' s f f' q).trans ?_
  exact sum_pick b f fun b' s f' => hit (x (ix3 b' s f')) q

/-- The reference's result is the weighted histogram of its arguments. -/
theorem result_eq (x : (⟨S32x16384x64, .f32⟩ : BufTy).Contents (Elt Ideal)) (w : (⟨S128x64, .f32⟩ : BufTy).Contents (Elt Ideal)) :
    val_main_v26 (F := Ideal) x w = weighted x w := by
  funext i
  obtain ⟨b, q, f, rfl⟩ : ∃ (b : Fin 32) (q : Fin 128) (f : Fin 64), i = ix3 b q f := ⟨i 0, i 1, i 2, eq_ix3 i⟩
  rw [val_main_v26_apply, val_main_v23_apply, val_main_v22_apply, val_main_v25_apply, val_main_v24_apply]
  have h0 : (idx_main_v23 (ix3 b q f) 0).val = b.val := rfl
  have h1 : (idx_main_v23 (ix3 b q f) 1).val = f.val := rfl
  have h2 : (idx_main_v23 (ix3 b q f) 2).val = q.val := rfl
  have hk : (idx_main_v22 (idx_main_v23 (ix3 b q f)) 0).val = (b.val * 64 + f.val) * 128 + q.val := by
    rw [← h0, ← h1, ← h2]
  have hw : idx_main_v24 (idx_main_v25 (ix3 b q f)) = ix2 q f := funext fun a => by
    match a with
    | ⟨0, _⟩ => rfl
    | ⟨1, _⟩ => rfl
  rw [cell_eq_count x b f q _ hk, hw]
  rfl

end Cert.Hist.Ref

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibTrailingAxis.lean ====
/-
  Layout lemmas for per-row quantities of a rank-3 block, read at an index.

  A per-row scalar of an a×b×c block (a row mean, a row norm) lives in an a×b array, is re-shaped to a×b×1 so that
  arithmetic on it keeps a trailing unit axis, and is then broadcast along that axis to a×b×c. A per-column vector of
  c entries is re-shaped to 1×1×c and broadcast along the two leading axes. Each step reads one entry of its operand:
    * the a×b array viewed as a×b×1 reads (p, q) at (p, q, 0);
    * the a×b×1 array broadcast to a×b×c reads (p, q, 0) at (p, q, r);
    * the c-vector viewed as 1×1×c and broadcast to a×b×c reads r at (p, q, r).
-/
import Idealize.ShloMosaic.Lib.ValueIdx
import Idealize.ShloMosaic.Lib.Pipeline.Value

namespace Cert.Lib.TrailingAxis

open Idealize.ShloMosaic Idealize.ShloMosaic.ValueIdx

variable {α : Type} {a b c : Nat}

/-- An a×b array viewed as a×b×1 (a trailing unit axis added) reads its entry (p, q) at (p, q, u). -/
theorem addUnitLast_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) := by
  refine shapeCast_apply x h _ _ ?_
  rw [Shape.rowMajor_val_two, Shape.rowMajor_val_three]
  have hu : u.val = 0 := by omega
  show p.val * b + q.val = (p.val * b + q.val) * 1 + u.val
  omega

/-- An a×b×1 array broadcast along its trailing unit axis to a×b×c reads its entry (p, q, 0) at (p, q, r). -/
theorem broadcastLast_apply (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q 0) :=
  broadcastTo_apply x h _ (ix3 p q 0) fun ax => by
    match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl

/-- A vector of c entries viewed as 1×1×c and broadcast along the two leading axes to a×b×c reads its entry r at
    (p, q, r). -/
theorem broadcastLeading2_apply (x : (⟨1, ![c]⟩ : Shape).Idx → α)
    (h₁ : (⟨1, ![c]⟩ : Shape).ShapeCasts ⟨3, ![1, 1, c]⟩)
    (h₂ : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ x h₁) h₂ (ix3 p q r) = x (ix1 r) := by
  refine (broadcastTo_apply _ h₂ _ (ix3 0 0 r) fun ax => ?_).trans ?_
  · match ax with
    | ⟨0, _⟩ => rfl
    | ⟨1, _⟩ => rfl
    | ⟨2, _⟩ =>
      show r.val = if c = 1 then 0 else r.val
      split_ifs with hc
      · have := r.isLt; omega
      · rfl
  · refine shapeCast_apply x h₁ _ _ ?_
    rw [Shape.rowMajor_val_one, Shape.rowMajor_val_three]
    show r.val = ((0 : Nat) * 1 + 0) * c + r.val
    omega

end Cert.Lib.TrailingAxis
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.KernelBody.lean ====
/-
  What one grid step of the kernel does to its accumulator, as a pure function.

  A step holds a block of 512 positions of one batch (all 64 features). It walks the block in four
  chunks of 128 positions; for each chunk it forms, per feature f and bin q, the number of the chunk's
  positions whose value falls in bin q (a one-hot comparison against the bin numbers 0 … 127 summed
  over the positions), adds the four chunk counts to a zero carry, and adds the carry to the
  accumulator. On the extended reals the accumulator's cell (f, q) therefore grows by the number of
  the block's 512 positions whose value at feature f falls in bin q.
-/
import proofs.«122339_j63668595196222_2_alg».proof.Proof.Gen.KernelIdeal.Skeleton
import proofs.«122339_j63668595196222_2_alg».proof.Proof.Bins
import proofs.«122339_j63668595196222_2_alg».proof.Proof.LibBlockReads
import proofs.«122339_j63668595196222_2_alg».proof.Proof.LibTrailingAxis
import proofs.«122339_j63668595196222_2_alg».proof.Proof.LibFinGroups
import Idealize.ShloMosaic.Lib.Pipeline.Value
import Idealize.ShloMosaic.Lib.Pipeline.FrameBody

noncomputable section

namespace Cert.Hist.Body

open Idealize.ShloMosaic Idealize.ShloMosaic.ValueIdx
open Cert.KernelIdeal Cert.KernelIdeal.Gen
open Cert.Hist

variable {F : FTy → Type} [FloatOps F]

/-- The bin words of a chunk of 128 positions. -/
def binsOf (v : Vec F S1x128x64 .f32) : IVec S128x64 32 :=
  minsi (broadcast S128x64 127#32) (maxsi (broadcast S128x64 0#32)
    (fptosi 32 (mulf (shapeCast S128x64 v shapeCasts_S1x128x64_S128x64) (broadcast S128x64 (Scalar.ofBits .f32 0x43000000#32)))))

/-- Per feature and bin, how many of the 128 positions carry that bin word: the one-hot comparison summed over the positions. -/
def oneHotSum (n : IVec S128x64 32) : FVec F S64x128 .f32 :=
  multiReduction .add [0] S64x128
    (sitofp .f32 (extui 32 (cmpi .eq (broadcastTo S128x64x128 (shapeCast S128x64x1 n shapeCasts_S128x64_S128x64x1) broadcasts_S128x64x1_S128x64x128)
      (iota .tc S128x64x128 32 [2] iota_S128x64x128_d2_w32)) natLt_1_32))
    0x00000000#32 reduces_S128x64x128_S64x128 (.inl rfl) rfl

/-- Chunk k of the block: positions 128·k … 128·k + 127. -/
abbrev chunk (x0 : Vec F S1x512x64 .f32) (k : Fin 4) : Vec F S1x128x64 .f32 :=
  View.ld x0 (Rect.unit (s := S1x512x64) (k0_off1 (BitVec.ofNat 32 k.val)) S1x128x64.size (k0_off1_inb k))

/-- The accumulator after a step, from the block and the accumulator before it. -/
def step (x0 : Vec F S1x512x64 .f32) (acc : Vec F S64x128 .f32) : FVec F S64x128 .f32 :=
  k0_pay1 (iota .tc S128x64x128 32 [2] iota_S128x64x128_d2_w32)
    (k0_pay7 (iota .tc S128x64x128 32 [2] iota_S128x64x128_d2_w32) (k0_pay4 (chunk x0 0)) (k0_pay5 (chunk x0 1)) k0_pay6 (chunk x0 2))
    (k0_pay8 (chunk x0 3)) 127#32 k0_pay9 acc

/-- The step is: the accumulator plus the four chunk counts added, in order, to a zero carry. -/
theorem step_eq (x0 : Vec F S1x512x64 .f32) (acc : Vec F S64x128 .f32) :
    step x0 acc = addf acc (addf (addf (addf (addf (broadcast S64x128 (Scalar.ofBits .f32 0x00000000#32))
      (oneHotSum (binsOf (chunk x0 0)))) (oneHotSum (binsOf (chunk x0 1)))) (oneHotSum (binsOf (chunk x0 2))))
      (oneHotSum (binsOf (chunk x0 3)))) := by
  unfold step k0_pay1
  try dsimp only
  rw [shapeCast_self]
  rfl

/-- The zero block a first step stores before it accumulates. -/
theorem zero_eq : (k0_pay3 : FVec F S64x128 .f32) = broadcast S64x128 (Scalar.ofBits .f32 0x00000000#32) := by
  unfold k0_pay3
  try dsimp only
  rw [shapeCast_self]

/-- The block a last step writes out: the accumulator times the (transposed) weights, cell by cell. -/
theorem out_apply (a wt : FVec Ideal S64x128 .f32) (f : Fin 64) (q : Fin 128) :
    k0_pay2 (F := Ideal) a wt (ix3 (0 : Fin 1) f q) = a (ix2 f q) * wt (ix2 f q) := by
  unfold k0_pay2
  try dsimp only
  rw [shapeCast_self]
  refine (shapeCast_addUnit_apply ![64, 128] (mulf a wt) shapeCasts_S64x128_S1x64x128 (ix3 (0 : Fin 1) f q)).trans ?_
  have e : ((fun a : Fin 2 => (ix3 (0 : Fin 1) f q : S1x64x128.Idx) a.succ) : S64x128.Idx) = ix2 f q := funext fun a => by
    match a with
    | ⟨0, _⟩ => rfl
    | ⟨1, _⟩ => rfl
  exact congrArg (mulf a wt) e

/-! ## One chunk at the ideal values -/

/-- The bin word of position r, feature f of a chunk. -/
theorem binsOf_apply (v : Vec Ideal S1x128x64 .f32) (r : Fin 128) (f : Fin 64) :
    binsOf v (ix2 r f) = binWord (v (ix3 (0 : Fin 1) r f)) := by
  unfold binsOf binWord
  have e : shapeCast S128x64 v shapeCasts_S1x128x64_S128x64 (ix2 r f) = v (ix3 (0 : Fin 1) r f) := by
    refine (shapeCast_dropUnit_apply ![128, 64] v shapeCasts_S1x128x64_S128x64 (ix2 r f)).trans ?_
    refine congrArg v (funext fun a => ?_)
    match a with
    | ⟨0, _⟩ => rfl
    | ⟨1, _⟩ => rfl
    | ⟨2, _⟩ => rfl
  show IntOp.minsi 127#32 (IntOp.maxsi 0#32 (Ideal.fptosi 32 (shapeCast S128x64 v shapeCasts_S1x128x64_S128x64 (ix2 r f) * Ideal.ofBits .f32 0x43000000#32))) = _
  rw [e]

/-- A chunk's count for feature f and bin q: the number of its positions whose value falls in bin q. -/
theorem oneHotSum_apply (v : Vec Ideal S1x128x64 .f32) (f : Fin 64) (q : Fin 128) :
    oneHotSum (F := Ideal) (binsOf v) (ix2 f q) = ∑ r : Fin 128, hit (v (ix3 (0 : Fin 1) r f)) q := by
  unfold oneHotSum
  refine (Cert.Lib.BlockReads.sum_first_axis_apply _ _ _ _ _ f q).trans ?_
  refine Finset.sum_congr rfl fun r _ => ?_
  rw [sitofp_apply, extui_apply]
  show ((((IntOp.cmpi .eq (broadcastTo S128x64x128 (shapeCast S128x64x1 (binsOf v) shapeCasts_S128x64_S128x64x1) broadcasts_S128x64x1_S128x64x128 (ix3 r f q))
      (iota .tc S128x64x128 32 [2] iota_S128x64x128_d2_w32 (ix3 r f q))).setWidth 32).toInt : ℝ) : EReal) = _
  rw [Cert.Lib.TrailingAxis.broadcastLast_apply, Cert.Lib.TrailingAxis.addUnitLast_apply, iota_single_apply, binsOf_apply]
  exact hit_eq_word _ q

/-- Position r of chunk k is position 128·k + r of the block. -/
theorem chunk_apply (x0 : Vec Ideal S1x512x64 .f32) (k : Fin 4) (r : Fin 128) (f : Fin 64) :
    chunk x0 k (ix3 (0 : Fin 1) r f)
      = x0 (ix3 (0 : Fin 1) (⟨128 * k.val + r.val, by have := k.isLt; have := r.isLt; omega⟩ : Fin 512) f) := by
  refine congrArg x0 (funext fun a => Fin.ext ?_)
  have ho := k0_off1_eq k
  match a with
  | ⟨0, _⟩ =>
    show k0_off1 (BitVec.ofNat 32 k.val) 0 + 1 * 0 = 0
    rw [ho]; rfl
  | ⟨1, _⟩ =>
    show k0_off1 (BitVec.ofNat 32 k.val) 1 + 1 * r.val = 128 * k.val + r.val
    rw [ho]
    show 128 * k.val + 1 * r.val = _
    omega
  | ⟨2, _⟩ =>
    show k0_off1 (BitVec.ofNat 32 k.val) 2 + 1 * f.val = f.val
    rw [ho]
    show 0 + 1 * f.val = _
    omega

/-! ## The whole step at the ideal values -/

/-- The indicator of position n of the block, as a function of the natural number n (zero past the block). -/
def hitAt (x0 : Vec Ideal S1x512x64 .f32) (f : Fin 64) (q : Fin 128) (n : ℕ) : EReal :=
  if h : n < 512 then hit (x0 (ix3 (0 : Fin 1) (⟨n, h⟩ : Fin 512) f)) q else 0

theorem hitAt_of_lt (x0 : Vec Ideal S1x512x64 .f32) (f : Fin 64) (q : Fin 128) (n : ℕ) (h : n < 512) :
    hitAt x0 f q n = hit (x0 (ix3 (0 : Fin 1) (⟨n, h⟩ : Fin 512) f)) q := dif_pos h

/-- A step adds to cell (f, q) of the accumulator the number of the block's 512 positions whose value at
    feature f falls in bin q. -/
theorem step_apply (x0 : Vec Ideal S1x512x64 .f32) (acc : Vec Ideal S64x128 .f32) (f : Fin 64) (q : Fin 128) :
    step x0 acc (ix2 f q) = acc (ix2 f q) + ∑ n : Fin 512, hit (x0 (ix3 (0 : Fin 1) n f)) q := by
  have hS : ∀ k : Fin 4, oneHotSum (F := Ideal) (binsOf (chunk x0 k)) (ix2 f q)
      = ∑ j : Fin 128, hitAt x0 f q (128 * k.val + j.val) := fun k => by
    rw [oneHotSum_apply]
    refine Finset.sum_congr rfl fun j _ => ?_
    rw [chunk_apply]
    have h : 128 * k.val + j.val < 512 := by have := k.isLt; have := j.isLt; omega
    exact (hitAt_of_lt x0 f q _ h).symm
  have hT : ∑ n : Fin 512, hit (x0 (ix3 (0 : Fin 1) n f)) q = ∑ n : Fin (4 * 128), hitAt x0 f q n.val :=
    Finset.sum_congr rfl fun n _ => (hitAt_of_lt x0 f q n.val n.isLt).symm
  rw [step_eq]
  show acc (ix2 f q) + ((((Ideal.ofBits .f32 0x00000000#32 + oneHotSum (F := Ideal) (binsOf (chunk x0 0)) (ix2 f q))
      + oneHotSum (F := Ideal) (binsOf (chunk x0 1)) (ix2 f q)) + oneHotSum (F := Ideal) (binsOf (chunk x0 2)) (ix2 f q))
      + oneHotSum (F := Ideal) (binsOf (chunk x0 3)) (ix2 f q)) = _
  rw [hS 0, hS 1, hS 2, hS 3, hT, Cert.Lib.FinGroups.sum_fin_groups, Fin.sum_univ_four, Ideal.ofBits_zero_f32, zero_add]

end Cert.Hist.Body

end
-- ==== Proof.KernelPieces.lean ====
/-
  What each kind of grid step leaves behind, in terms of the step function.

  A step of the first kind (the first block of a batch) zeroes the accumulator and then accumulates
  its block; a step of the middle kind accumulates its block onto what the step before left; a step
  of the last kind does the same and then writes out the accumulator times the weights.
-/
import proofs.«122339_j63668595196222_2_alg».proof.Proof.Gen.KernelIdeal.Frame
import proofs.«122339_j63668595196222_2_alg».proof.Proof.KernelBody
import Idealize.ShloMosaic.Lib.Pipeline.Value
import Idealize.ShloMosaic.Lib.ValueIdx
import Idealize.ShloMosaic.Lib.Tactic

noncomputable section

namespace Cert.Hist.Pieces

open Idealize.ShloMosaic Idealize.ShloMosaic.TcCoe Idealize.SL.Sem Idealize.ShloMosaic.ValueIdx
open Cert.KernelIdeal Cert.KernelIdeal.Gen
open Cert.Hist.Body

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves in the accumulator the step function of its block and of what it found there. -/
theorem acc_middle (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : ¬cond0_1 i)
    (x0 : Vec F S1x512x64 .f32) (x1 : Vec F S64x128 .f32) (xs0 : Vec F S64x128 .f32) :
    sout0_B_0 c i arg2 harg2 arg3 harg3 arg4 harg4 arg5 harg5 hc0 hc1 x0 x1 xs0 = step x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg5.read_unread, View.ld_unit_zero (S := S64x128) hz2]
  rfl

/-- A first step leaves the step function of its block and of the zero block. -/
theorem acc_first (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : cond0_0 i) (hc1 : ¬cond0_1 i)
    (x0 : Vec F S1x512x64 .f32) (x1 : Vec F S64x128 .f32) :
    sout0_A_0 c i arg2 harg2 arg3 harg3 arg4 harg4 arg5 harg5 hc0 hc1 x0 x1 = step x0 k0_pay3 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S64x128) hz2, View.readCov_unit_zero (S := S64x128) _ hz2]
  simp only [View.readAt_eq_ld, harg2.read_unread, View.ld_unit_zero (S := S64x128) hz2]
  rfl

/-- A last step leaves the same accumulator as a middle step … -/
theorem acc_last (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : cond0_1 i)
    (x0 : Vec F S1x512x64 .f32) (x1 : Vec F S64x128 .f32) (xs0 : Vec F S64x128 .f32) :
    sout0_C_0 c i arg2 harg2 arg3 harg3 arg4 harg4 arg5 harg5 hc0 hc1 x0 x1 xs0 = step x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg5.read_unread, View.ld_unit_zero (S := S64x128) hz2]
  rfl

/-- … and writes out that accumulator times the weight block. -/
theorem out_last (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : cond0_1 i)
    (x0 : Vec F S1x512x64 .f32) (x1 : Vec F S64x128 .f32) (xs0 : Vec F S64x128 .f32) :
    out0_C_2 c i arg2 harg2 arg3 harg3 arg4 harg4 arg5 harg5 hc0 hc1 x0 x1 xs0 = k0_pay2 (step x0 xs0) x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S64x128) _ hz2]
  simp only [View.readAt_eq_ld, harg2.read_unread, harg3.read_unread, harg5.read_unread, View.ld_unit_zero (S := S64x128) hz2]
  rfl

/-! ## The same, cell by cell, at the ideal values -/

open Cert.Hist in
/-- After a first step cell (f, q) holds the number of the block's positions whose value at feature f falls in bin q. -/
theorem first_cell (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : cond0_0 i) (hc1 : ¬cond0_1 i)
    (x0 : Vec Ideal S1x512x64 .f32) (x1 : Vec Ideal S64x128 .f32) (f : Fin 64) (q : Fin 128) :
    sout0_A_0 c i arg2 harg2 arg3 harg3 arg4 harg4 arg5 harg5 hc0 hc1 x0 x1 (ix2 f q)
      = ∑ n : Fin 512, hit (x0 (ix3 (0 : Fin 1) n f)) q := by
  rw [acc_first, step_apply, zero_eq]
  show Ideal.ofBits .f32 0x00000000#32 + _ = _
  rw [Ideal.ofBits_zero_f32, zero_add]

open Cert.Hist in
/-- After a middle step cell (f, q) has grown by that number. -/
theorem middle_cell (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : ¬cond0_1 i)
    (x0 : Vec Ideal S1x512x64 .f32) (x1 : Vec Ideal S64x128 .f32) (xs0 : Vec Ideal S64x128 .f32) (f : Fin 64) (q : Fin 128) :
    sout0_B_0 c i arg2 harg2 arg3 harg3 arg4 harg4 arg5 harg5 hc0 hc1 x0 x1 xs0 (ix2 f q)
      = xs0 (ix2 f q) + ∑ n : Fin 512, hit (x0 (ix3 (0 : Fin 1) n f)) q := by
  rw [acc_middle, step_apply]

open Cert.Hist in
/-- After a last step too. -/
theorem last_cell (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : cond0_1 i)
    (x0 : Vec Ideal S1x512x64 .f32) (x1 : Vec Ideal S64x128 .f32) (xs0 : Vec Ideal S64x128 .f32) (f : Fin 64) (q : Fin 128) :
    sout0_C_0 c i arg2 harg2 arg3 harg3 arg4 harg4 arg5 harg5 hc0 hc1 x0 x1 xs0 (ix2 f q)
      = xs0 (ix2 f q) + ∑ n : Fin 512, hit (x0 (ix3 (0 : Fin 1) n f)) q := by
  rw [acc_last, step_apply]

/-- The block a last step writes out holds at (0, f, q) the accumulator's cell it leaves times the weight block's cell. -/
theorem out_cell (c : Dev nD) (i : grid0.Coords) (arg2 : Memref sig .tc .vmem S1x512x64 .f32) (harg2 : arg2.IsWhole) (arg3 : Memref sig .tc .vmem S64x128 .f32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : cond0_1 i)
    (x0 : Vec Ideal S1x512x64 .f32) (x1 : Vec Ideal S64x128 .f32) (xs0 : Vec Ideal S64x128 .f32) (f : Fin 64) (q : Fin 128) :
    out0_C_2 c i arg2 harg2 arg3 harg3 arg4 harg4 arg5 harg5 hc0 hc1 x0 x1 xs0 (ix3 (0 : Fin 1) f q)
      = sout0_C_0 c i arg2 harg2 arg3 harg3 arg4 harg4 arg5 harg5 hc0 hc1 x0 x1 xs0 (ix2 f q) * x1 (ix2 f q) := by
  rw [out_last, acc_last]
  exact out_apply (step x0 xs0) x1 f q

end Cert.Hist.Pieces

end
-- ==== Proof.KernelAcc.lean ====
/-
  The accumulator over the grid, and the array the kernel's region leaves.

  Grid point t works on batch t / 32 and on positions 512·(t mod 32) … 512·(t mod 32) + 511 of it.
  After point t the accumulator's cell (f, q) holds the number of positions below 512·(t mod 32) + 512
  of that batch whose value at feature f falls in bin q: at the first block of a batch the accumulator
  is zeroed first, at every other block the count of the blocks before is found there. At the last
  block of a batch (t mod 32 = 31) all 16384 positions are counted, and the point writes block t / 32
  of the output: the counts times the transposed weights. These 32 blocks cover the output array.
-/
import proofs.«122339_j63668595196222_2_alg».proof.Proof.Gen.KernelIdeal.Frame
import proofs.«122339_j63668595196222_2_alg».proof.Proof.KernelPieces
import Idealize.ShloMosaic.Lib.Pipeline.Value
import Idealize.ShloMosaic.Lib.StableHlo.Run
import Idealize.ShloMosaic.Lib.ValueIdx

noncomputable section

namespace Cert.Hist.Acc

open Idealize.ShloMosaic Idealize.ShloMosaic.TcCoe Idealize.SL.Sem Idealize.ShloMosaic.ValueIdx
open Idealize.ShloMosaic.Pipeline (Dat)
open Cert.KernelIdeal Cert.KernelIdeal.Gen
open Cert.Hist Cert.Hist.Pieces

variable (m : (ℓ : Loc nD τ sig) → Buf (Elt Ideal) ℓ)

/-- The printed index maps, decided once over the grid: the input block of point t is block (t / 32, t mod 32, 0),
    the weight block is the whole array, the output block is block (t / 32, 0, 0). -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 2) = 0 ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

/-- The batch a grid point works on. -/
def batchOf (n : ℕ) : Fin 32 := ⟨n / 32 % 32, Nat.mod_lt _ (by decide)⟩

/-- Position r, feature f of the input block at point t is position 512·(t mod 32) + r of batch t / 32. -/
theorem xblk_apply (c : Dev nD) (t : Fin cfg0.N) (r : Fin 512) (f : Fin 64) :
    (iblk m c 0 t : Vec Ideal S1x512x64 .f32) (ix3 (0 : Fin 1) r f)
      = V m c main_arg0 (ix3 (batchOf t.val) (⟨512 * (t.val % 32) + r.val, by have := r.isLt; omega⟩ : Fin 16384) f) := by
  have hN : t.val < 1024 := lt_of_lt_of_eq t.isLt N_0
  obtain ⟨e0, e1, e2, -⟩ := idx_facts t
  unfold iblk
  rw [View.read_apply]
  show V m c main_arg0 _ = V m c main_arg0 _
  congr 1
  funext a
  apply Fin.ext
  match a with
  | ⟨0, _⟩ =>
    show win0_0.index t (0 : Fin 3) * 1 + 1 * 0 = t.val / 32 % 32
    omega
  | ⟨1, _⟩ =>
    show win0_0.index t (1 : Fin 3) * 512 + 1 * r.val = 512 * (t.val % 32) + r.val
    omega
  | ⟨2, _⟩ =>
    show win0_0.index t (2 : Fin 3) * 64 + 1 * f.val = f.val
    omega

/-- The weights as the region finds them: the transposed weight array. -/
theorem wt_eq (c : Dev nD) : (V m c main_v0 : S64x128.Idx → EReal)
    = transpose S64x128 [1, 0] (m ((c : Thread nD τ).loc main_arg1)) transposes_S128x64_S64x128_1_0 := by
  show StableHlo.after hostOps0 (fun b => m (c, b)) (Proc.devRef .tc main_v0) = _
  after_results

/-- Cell (f, q) of the weight block at any point is the weight w(q, f). -/
theorem wblk_apply (c : Dev nD) (t : Fin cfg0.N) (f : Fin 64) (q : Fin 128) :
    (iblk m c 1 t : Vec Ideal S64x128 .f32) (ix2 f q) = m ((c : Thread nD τ).loc main_arg1) (ix2 q f) := by
  obtain ⟨-, -, -, e3, e4, -⟩ := idx_facts t
  have hb : (iblk m c 1 t : Vec Ideal S64x128 .f32) (ix2 f q) = V m c main_v0 (ix2 f q) := by
    unfold iblk
    rw [View.read_apply]
    show V m c main_v0 _ = V m c main_v0 _
    congr 1
    funext a
    apply Fin.ext
    match a with
    | ⟨0, _⟩ =>
      show win0_1.index t (0 : Fin 2) * 64 + 1 * f.val = f.val
      omega
    | ⟨1, _⟩ =>
      show win0_1.index t (1 : Fin 2) * 128 + 1 * q.val = q.val
      omega
  rw [hb, wt_eq]
  exact transpose_apply [1, 0] _ transposes_S128x64_S64x128_1_0 (ix2 f q) (ix2 q f) fun b => by
    match b with
    | ⟨0, _⟩ => rfl
    | ⟨1, _⟩ => rfl

/-! ## The running count -/

/-- The indicator of position n of batch b (zero past the end of the axis), as a function of the natural number n. -/
def hitN (X : S32x16384x64.Idx → EReal) (b : Fin 32) (f : Fin 64) (q : Fin 128) (n : ℕ) : EReal :=
  if h : n < 16384 then hit (X (ix3 b (⟨n, h⟩ : Fin 16384) f)) q else 0

/-- How many of the first n positions of batch b fall, at feature f, in bin q. -/
def running (X : S32x16384x64.Idx → EReal) (b : Fin 32) (f : Fin 64) (q : Fin 128) (n : ℕ) : EReal :=
  ∑ i ∈ Finset.range n, hitN X b f q i

theorem running_all (X : S32x16384x64.Idx → EReal) (b : Fin 32) (f : Fin 64) (q : Fin 128) :
    running X b f q 16384 = count X b f q := by
  unfold running count
  rw [Finset.sum_range]
  refine Finset.sum_congr rfl fun s _ => ?_
  unfold hitN
  rw [dif_pos s.isLt]

theorem running_add (X : S32x16384x64.Idx → EReal) (b : Fin 32) (f : Fin 64) (q : Fin 128) (n : ℕ) :
    running X b f q n + ∑ r ∈ Finset.range 512, hitN X b f q (n + r) = running X b f q (n + 512) :=
  (Finset.sum_range_add _ n 512).symm

theorem running_zero (X : S32x16384x64.Idx → EReal) (b : Fin 32) (f : Fin 64) (q : Fin 128) :
    running X b f q 0 = 0 := by
  unfold running
  rw [Finset.range_zero, Finset.sum_empty]

/-- The positions of the block at point t that fall in bin q are positions 512·(t mod 32) … of the batch. -/
theorem block_hits (c : Dev nD) (t : Fin cfg0.N) (f : Fin 64) (q : Fin 128) :
    ∑ n : Fin 512, hit ((iblk m c 0 t : Vec Ideal S1x512x64 .f32) (ix3 (0 : Fin 1) n f)) q
      = ∑ r ∈ Finset.range 512, hitN (V m c main_arg0) (batchOf t.val) f q (512 * (t.val % 32) + r) := by
  have hN : t.val < 1024 := lt_of_lt_of_eq t.isLt N_0
  rw [Finset.sum_range]
  refine Finset.sum_congr rfl fun n _ => ?_
  rw [xblk_apply]
  unfold hitN
  rw [dif_pos (by have := n.isLt; omega)]

/-- One point: if the point before (when this is not the first block of its batch) left the running count, so does this one. -/
theorem acc_step (c : Dev nD) (t : Fin cfg0.N) (f : Fin 64) (q : Fin 128)
    (hprev : ¬t.val % 32 = 0 → (outsAt0 m c (t.val - 1) (Nat.lt_of_le_of_lt (Nat.sub_le _ _) t.isLt)).2 (ix2 f q)
      = running (V m c main_arg0) (batchOf (t.val - 1)) f q (512 * ((t.val - 1) % 32) + 512)) :
    (outsAt0 m c t.val t.isLt).2 (ix2 f q) = running (V m c main_arg0) (batchOf t.val) f q (512 * (t.val % 32) + 512) := by
  have hN : t.val < 1024 := lt_of_lt_of_eq t.isLt N_0
  by_cases h0 : t.val % 32 = 0
  · have h1 : ¬t.val % 32 = 31 := by omega
    rw [outsAt0_A m c t h0 h1]
    refine (first_cell c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t) f q).trans ?_
    rw [block_hits, ← running_add, h0, running_zero, zero_add]
  · have hb : batchOf (t.val - 1) = batchOf t.val := Fin.ext (by show (t.val - 1) / 32 % 32 = t.val / 32 % 32; omega)
    have hp : 512 * ((t.val - 1) % 32) + 512 = 512 * (t.val % 32) := by omega
    have hprev' := hprev h0
    rw [hb, hp] at hprev'
    by_cases h1 : t.val % 32 = 31
    · rw [outsAt0_C m c t h0 h1]
      refine (last_cell c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (iblk m c 0 t) (iblk m c 1 t)
        (outsAt0 m c (t.val - 1) (Nat.lt_of_le_of_lt (Nat.sub_le _ _) t.isLt)).2 f q).trans ?_
      rw [hprev', block_hits, running_add]
    · rw [outsAt0_B m c t h0 h1]
      refine (middle_cell c (grid0.coords t) (ms0_0 t) (hs0_0 t) (ms0_1 t) (hs0_1 t) (ms0_2 t) (hs0_2 t) scM0_0 (Memref.isWhole_whole _)
        (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2 f q).trans ?_
      rw [hprev', block_hits, running_add]

/-- After every point the accumulator holds the running count of its batch up to the end of the point's block. -/
theorem acc_eq (c : Dev nD) : ∀ (n : ℕ) (h : n < cfg0.N) (f : Fin 64) (q : Fin 128),
    (outsAt0 m c n h).2 (ix2 f q) = running (V m c main_arg0) (batchOf n) f q (512 * (n % 32) + 512) := by
  intro n
  induction n with
  | zero =>
    intro h f q
    exact acc_step m c ⟨0, h⟩ f q fun h' => absurd (Nat.zero_mod 32) h'
  | succ k ih =>
    intro h f q
    exact acc_step m c ⟨k + 1, h⟩ f q fun _ => ih (Nat.lt_of_succ_lt h) f q

end Cert.Hist.Acc

end
-- ==== Proof.LibSlabs.lean ====
/-
  An a×b×c array handled slab by slab along its middle axis, read at an index.

  Slab n is the a×1×c slice at middle coordinate n. Read at (p, 0, q) it is the array at (p, n, q); with its unit
  middle axis dropped it is an a×c matrix holding at (p, q) what the slab held at (p, 0, q), and the unit axis put back
  undoes that. A rectangle of the slab's extents placed at (0, n, 0) sends the slab's index (p, 0, q) to (p, n, q) of the
  array. Swapping the last two axes of an a×b×c array gives the a×c×b array holding at (p, q, r) the entry (p, r, q).
  An a×1 column with its unit axis dropped is the vector holding at p the column's entry (p, 0).
  Nothing here mentions a program.
-/
import Idealize.ShloMosaic.Lib.Pipeline.Value
import Idealize.ShloMosaic.Lib.ValueIdx

noncomputable section

namespace Cert.Lib.Slabs

open Idealize.ShloMosaic Idealize.ShloMosaic.ValueIdx

variable {α : Type} {a b c : Nat}

/-- Slab n of the middle axis read at (p, 0, q): the array at (p, n, q). -/
theorem slab_apply (x : (⟨3, ![a, b, c]⟩ : Shape).Idx → α) (n : Nat) (hn : n < b)
    (h : (⟨3, ![a, b, c]⟩ : Shape).Slices ![0, n, 0] ⟨3, ![a, 1, c]⟩) (p : Fin a) (q : Fin c) :
    extractStridedSlice ⟨3, ![a, 1, c]⟩ ![0, n, 0] x h (ix3 p (0 : Fin 1) q) = x (ix3 p ⟨n, hn⟩ q) :=
  extractStridedSlice_apply ![0, n, 0] x h (ix3 p (0 : Fin 1) q) (ix3 p ⟨n, hn⟩ q) fun ax => by
    match ax with
    | ⟨0, _⟩ => show p.val = 0 + p.val; omega
    | ⟨1, _⟩ => show n = n + 0; rfl
    | ⟨2, _⟩ => show q.val = 0 + q.val; omega

/-- An a×1×c slab with its unit axis dropped reads at (p, q) the slab's entry (p, 0, q). -/
theorem dropMid_apply (v : (⟨3, ![a, 1, c]⟩ : Shape).Idx → α)
    (h : (⟨3, ![a, 1, c]⟩ : Shape).ShapeCasts ⟨2, ![a, c]⟩) (p : Fin a) (q : Fin c) :
    shapeCast ⟨2, ![a, c]⟩ v h (ix2 p q) = v (ix3 p (0 : Fin 1) q) := by
  refine shapeCast_apply v h _ _ ?_
  rw [Shape.rowMajor_val_three, Shape.rowMajor_val_two]
  show (p.val * 1 + 0) * c + q.val = p.val * c + q.val
  rw [Nat.mul_one, Nat.add_zero]

/-- An a×c matrix given a unit middle axis reads at (p, 0, q) the matrix's entry (p, q). -/
theorem addMid_apply (v : (⟨2, ![a, c]⟩ : Shape).Idx → α)
    (h : (⟨2, ![a, c]⟩ : Shape).ShapeCasts ⟨3, ![a, 1, c]⟩) (p : Fin a) (q : Fin c) :
    shapeCast ⟨3, ![a, 1, c]⟩ v h (ix3 p (0 : Fin 1) q) = v (ix2 p q) := by
  refine shapeCast_apply v h _ _ ?_
  rw [Shape.rowMajor_val_three, Shape.rowMajor_val_two]
  show p.val * c + q.val = (p.val * 1 + 0) * c + q.val
  rw [Nat.mul_one, Nat.add_zero]

/-- An a×1 column with its unit axis dropped reads at p the column's entry (p, 0). -/
theorem dropCol_apply (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) := by
  refine shapeCast_apply v h _ _ ?_
  rw [Shape.rowMajor_val_one, Shape.rowMajor_val_two]
  show p.val * 1 + 0 = p.val
  omega

/-- The last two axes of an a×b×c array swapped: the result at (p, q, r) is the array at (p, r, q). -/
theorem swapLast_apply (x : (⟨3, ![a, b, c]⟩ : Shape).Idx → α)
    (h : (⟨3, ![a, b, c]⟩ : Shape).Transposes [0, 2, 1] ⟨3, ![a, c, b]⟩) (p : Fin a) (q : Fin c) (r : Fin b) :
    transpose ⟨3, ![a, c, b]⟩ [0, 2, 1] x h (ix3 p q r) = x (ix3 p r q) :=
  transpose_apply [0, 2, 1] x h (ix3 p q r) (ix3 p r q) fun ax => by
    match ax with
    | ⟨0, _⟩ => rfl
    | ⟨1, _⟩ => rfl
    | ⟨2, _⟩ => rfl

/-- The rectangle of slab n's extents at (0, n, 0) places the slab's index (p, 0, q) at (p, n, q) of the array. -/
theorem slabRect_emb (n : Nat) (hn : n < b)
    (inb : ∀ ax, (![0, n, 0] : Fin 3 → Nat) ax + (⟨3, ![a, 1, c]⟩ : Shape).size ax ≤ (⟨3, ![a, b, c]⟩ : Shape).size ax)
    (p : Fin a) (q : Fin c) :
    (Rect.unit (s := ⟨3, ![a, b, c]⟩) ![0, n, 0] (⟨3, ![a, 1, c]⟩ : Shape).size inb).emb (ix3 p (0 : Fin 1) q)
      = ix3 p ⟨n, hn⟩ q := by
  funext ax; apply Fin.ext
  match ax with
  | ⟨0, _⟩ => show 0 + 1 * p.val = p.val; omega
  | ⟨1, _⟩ => show n + 1 * 0 = n; omega
  | ⟨2, _⟩ => show 0 + 1 * q.val = q.val; omega

/-- Every index of an a×1×c slab has middle coordinate 0. -/
theorem eq_ix3_mid (y : (⟨3, ![a, 1, c]⟩ : Shape).Idx) : y = ix3 (y 0) (0 : Fin 1) (y 2) := by
  funext ax
  match ax with
  | ⟨0, _⟩ => rfl
  | ⟨1, h1⟩ =>
    apply Fin.ext
    have h : (y ⟨1, h1⟩).val < 1 := (y ⟨1, h1⟩).isLt
    show (y ⟨1, h1⟩).val = 0
    omega
  | ⟨2, _⟩ => rfl

end Cert.Lib.Slabs

end
-- ==== Proof.KernelValue.lean ====
/-
  The kernel's result as one function of its arguments.

  Every last block of a batch writes one block of the region's output: at (b, f, q) the count for
  (b, f, q) times the weight w(q, f). The 32 blocks cover the output, and the host's transposition of
  its last two axes after the region turns it into the weighted histogram.
-/
import proofs.«122339_j63668595196222_2_alg».proof.Proof.Gen.KernelIdeal.Frame
import proofs.«122339_j63668595196222_2_alg».proof.Proof.KernelAcc
import proofs.«122339_j63668595196222_2_alg».proof.Proof.LibSlabs
import Idealize.ShloMosaic.Lib.Pipeline.Value
import Idealize.ShloMosaic.Lib.StableHlo.Run
import Idealize.ShloMosaic.Lib.ValueIdx

noncomputable section

namespace Cert.Hist.Value

open Idealize.ShloMosaic Idealize.ShloMosaic.TcCoe Idealize.SL.Sem Idealize.ShloMosaic.ValueIdx
open Idealize.ShloMosaic.Pipeline (Dat)
open Cert.KernelIdeal Cert.KernelIdeal.Gen
open Cert.Hist Cert.Hist.Pieces Cert.Hist.Acc

variable (m : (ℓ : Loc nD τ sig) → Buf (Elt Ideal) ℓ) (ρ : Dev nD → PrngReg)

/-- What the region leaves in its output array: at (b, f, q) the count for (b, f, q) times the weight w(q, f). -/
def regionResult (X : S32x16384x64.Idx → EReal) (W : S128x64.Idx → EReal) : S32x64x128.Idx → EReal :=
  fun i => count X (i 0) (i 1) (i 2) * W (ix2 (i 2) (i 1))

/-- Every index of a 1×64×128 block is (0, f, q). -/
theorem eq_lead (y : S1x64x128.Idx) : y = ix3 (0 : Fin 1) (y 1) (y 2) := funext fun a => by
  match a with
  | ⟨0, _⟩ =>
    have h : (y 0).val < 1 := (y 0).isLt
    exact Fin.ext (by show (y 0).val = 0; omega)
  | ⟨1, _⟩ => rfl
  | ⟨2, _⟩ => rfl

/-- What a last block of a batch writes back is its block of the region's result. -/
theorem flushed_eq (c : Dev nD) (t : Fin cfg0.N) (hf : (cfg0.win 2).flush t = true) :
    (dats m 0 c).flushed 2 t = ((cfg0.win 2).blk t).view.read (Elt Ideal)
      (regionResult (V m c main_arg0) (m ((c : Thread nD τ).loc main_arg1))) := by
  have hN : t.val < 1024 := lt_of_lt_of_eq t.isLt N_0
  have h1 : t.val % 32 = 31 := (flush0_2 t).mp hf
  have h0 : ¬t.val % 32 = 0 := by omega
  obtain ⟨-, -, -, -, -, e5, e6, e7⟩ := idx_facts t
  show (cfg0.win 2).cut (grid0.coords t) ((dats m 0 c).after 2 t) = _
  rw [after0_2]
  refine funext fun (y : S1x64x128.Idx) => ?_
  obtain ⟨f, q, rfl⟩ : ∃ (f : Fin 64) (q : Fin 128), y = ix3 (0 : Fin 1) f q := ⟨y 1, y 2, eq_lead y⟩
  have hacc := acc_eq m c t.val t.isLt f q
  rw [outsAt0_C m c t h0 h1] at hacc
  dsimp only at hacc
  rw [outsAt0_C m c t h0 h1]
  refine (out_cell c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2 f q).trans ?_
  rw [hacc, wblk_apply, h1, show 512 * 31 + 512 = 16384 from rfl, running_all, View.read_apply]
  show _ = regionResult (V m c main_arg0) (m ((c : Thread nD τ).loc main_arg1)) _
  have hemb : ((cfg0.win 2).blk t).view.emb (ix3 (0 : Fin 1) f q) = (ix3 (batchOf t.val) f q : S32x64x128.Idx) := by
    funext a
    apply Fin.ext
    match a with
    | ⟨0, _⟩ =>
      show win0_2.index t (0 : Fin 3) * 1 + 1 * 0 = t.val / 32 % 32
      omega
    | ⟨1, _⟩ =>
      show win0_2.index t (1 : Fin 3) * 64 + 1 * f.val = f.val
      omega
    | ⟨2, _⟩ =>
      show win0_2.index t (2 : Fin 3) * 128 + 1 * q.val = q.val
      omega
  rw [hemb]
  rfl

/-- An index of the output is in point t's block exactly when each coordinate is in the block's range. -/
theorem mem_blk (t : Fin cfg0.N) (i : S32x64x128.Idx) :
    i ∈ ((cfg0.win 2).blk t).view.set ↔ ∀ a : Fin 3, win0_2.index t a * S1x64x128.size a ≤ (i a).val
      ∧ (i a).val < win0_2.index t a * S1x64x128.size a + S1x64x128.size a := by
  show i ∈ ((View.whole main_v1).slice (win0_2.rect t)).set ↔ _
  rw [View.set_slice_whole, Rect.mem_set_unit]
  exact Iff.rfl

/-- The region's output array ends at the region's result: the last block of batch b covers row b. -/
theorem region_final (c : Dev nD) :
    (dats m 0 c).arrAt 2 cfg0.N = regionResult (V m c main_arg0) (m ((c : Thread nD τ).loc main_arg1)) :=
  (dats m 0 c).arrAt_eq_of_cover 2 _ (fun t hf => flushed_eq m c t hf) fun i => by
    have hi0 : ((i : S32x64x128.Idx) 0).val < 32 := ((i : S32x64x128.Idx) 0).isLt
    have hi1 : ((i : S32x64x128.Idx) 1).val < 64 := ((i : S32x64x128.Idx) 1).isLt
    have hi2 : ((i : S32x64x128.Idx) 2).val < 128 := ((i : S32x64x128.Idx) 2).isLt
    have hlt : 32 * ((i : S32x64x128.Idx) 0).val + 31 < cfg0.N := by rw [show cfg0.N = 1024 from N_0]; omega
    refine ⟨⟨32 * ((i : S32x64x128.Idx) 0).val + 31, hlt⟩, (flush0_2 _).mpr (by
      show (32 * ((i : S32x64x128.Idx) 0).val + 31) % 32 = 31; omega), ?_⟩
    rw [mem_blk]
    obtain ⟨-, -, -, -, -, e5, e6, e7⟩ := idx_facts ⟨32 * ((i : S32x64x128.Idx) 0).val + 31, hlt⟩
    intro a
    match a with
    | ⟨0, _⟩ =>
      show win0_2.index _ (0 : Fin 3) * 1 ≤ ((i : S32x64x128.Idx) 0).val ∧ ((i : S32x64x128.Idx) 0).val < win0_2.index _ (0 : Fin 3) * 1 + 1
      rw [e5]
      show (32 * ((i : S32x64x128.Idx) 0).val + 31) / 32 * 1 ≤ _ ∧ _ < (32 * ((i : S32x64x128.Idx) 0).val + 31) / 32 * 1 + 1
      omega
    | ⟨1, _⟩ =>
      show win0_2.index _ (1 : Fin 3) * 64 ≤ ((i : S32x64x128.Idx) 1).val ∧ ((i : S32x64x128.Idx) 1).val < win0_2.index _ (1 : Fin 3) * 64 + 64
      rw [e6]
      omega
    | ⟨2, _⟩ =>
      show win0_2.index _ (2 : Fin 3) * 128 ≤ ((i : S32x64x128.Idx) 2).val ∧ ((i : S32x64x128.Idx) 2).val < win0_2.index _ (2 : Fin 3) * 128 + 128
      rw [e7]
      omega

/-- The host's transposition after the region: the result buffer ends at the weighted histogram of the arguments. -/
theorem tail_eq (c : Dev nD) :
    Pipeline.afterTail₀ cfgs (dats m) 0 (V0 m) [hostOps1] c main_v2
      = weighted (m ((c.tc : Thread nD τ).loc main_arg0)) (m ((c.tc : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = regionResult (V m c main_arg0) (m ((c : Thread nD τ).loc main_arg1)) :=
    (Pipeline.withArrays_arr spec0 launch0.win.arr_inj c _ _ 2).trans (region_final m c)
  rw [hw]
  funext i
  obtain ⟨b, q, f, rfl⟩ : ∃ (b : Fin 32) (q : Fin 128) (f : Fin 64), i = ix3 b q f := ⟨i 0, i 1, i 2, eq_ix3 i⟩
  rw [Cert.Lib.Slabs.swapLast_apply, V_main_arg0]
  rfl

/-- The kernel's run, read: the result buffer at the weighted histogram of the arguments, the arguments unchanged. -/
theorem run : θ_run defs (onTc (τ := τ) (main (F := Ideal))) ⟨m, fun _ => 0, ρ⟩ fun r => ∀ c : Dev nD,
      r.2.mem ((c.tc : Thread nD τ).loc main_v2)
        = weighted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Hist.Value

end
-- ==== Proof.lean ====
/-
  The certificate's claims.

  The kernel computes, for every batch b, feature f and bin q, how many of the 16384 positions s have
  their value x(b, s, f) in bin q (v·128 truncated and clamped to 0 … 127) by comparing every value's
  bin with every bin number and summing the resulting zeros and ones block by block, and multiplies the
  count by the weight w(q, f). The reference numbers every (b, s, f) with (b·64 + f)·128 + bin, scatter-adds
  a one per triple into a zero array, re-shapes and multiplies by the same weights. Over the extended
  reals both are the same finite sum of indicators times the same weight; no property of the inputs is
  used (a sum of zeros and ones needs none, and both programs find a value's bin by the same operations).
  The kernel's narrowing of its zero-one values and partial counts to a shorter float format and back
  is the identity at the ideal values: the eight rewrites the idealization records.
-/
import proofs.«122339_j63668595196222_2_alg».proof.Defs
import proofs.«122339_j63668595196222_2_alg».proof.Proof.Gen.Kernel
import proofs.«122339_j63668595196222_2_alg».proof.Proof.Gen.Kernel.Skeleton
import proofs.«122339_j63668595196222_2_alg».proof.Proof.Gen.Kernel.Launch
import proofs.«122339_j63668595196222_2_alg».proof.Proof.Gen.Kernel.Points
import proofs.«122339_j63668595196222_2_alg».proof.Proof.Gen.Kernel.Frame
import proofs.«122339_j63668595196222_2_alg».proof.Proof.Gen.KernelIdeal
import proofs.«122339_j63668595196222_2_alg».proof.Proof.Gen.KernelIdeal.Skeleton
import proofs.«122339_j63668595196222_2_alg».proof.Proof.Gen.KernelIdeal.Launch
import proofs.«122339_j63668595196222_2_alg».proof.Proof.Gen.KernelIdeal.Points
import proofs.«122339_j63668595196222_2_alg».proof.Proof.Gen.KernelIdeal.Frame
import proofs.«122339_j63668595196222_2_alg».proof.Proof.Gen.ReferenceIdeal
import proofs.«122339_j63668595196222_2_alg».proof.Proof.Gen.ReferenceIdeal.Run
import proofs.«122339_j63668595196222_2_alg».proof.Proof.Gen.ReferenceIdeal.Read
import proofs.«122339_j63668595196222_2_alg».proof.Proof.Gen.Pre_finite_inputs
import proofs.«122339_j63668595196222_2_alg».proof.Proof.RefCount
import proofs.«122339_j63668595196222_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Narrowing a float to a shorter format and widening it back is the identity on the extended reals: once per
    one-hot block and once per partial count, for each of the four chunks. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16⟩

/-- Both programs end with the weighted histogram of the arguments in their result. -/
theorem algebraic : Cert.algebraic_KernelIdeal_ReferenceIdeal := by
  intro m ρ m' ρ' _ hagree
  refine ⟨fun c => Cert.Hist.weighted (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Hist.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Hist.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
